-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 20
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S4096x4096, .f32⟩
  | .hbm, ⟨15, _⟩ => ⟨S4096x4096, .f32⟩
  | .hbm, ⟨16, _⟩ => ⟨S4096x4096, .bf16⟩
  | .hbm, ⟨17, _⟩ => ⟨S16384x4096, .bf16⟩
  | .hbm, ⟨18, _⟩ => ⟨S1x4096, .f32⟩
  | .hbm, ⟨19, _⟩ => ⟨S16384x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x4096.size a
  hwx0_0 : ∀ i : grid0.Coords, EltTy.bits .bf16 = 32 ∨ (Rect.block (s := S16384x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x4096.size a
  hwx0_3 : ∀ i : grid0.Coords, EltTy.bits .f32 = 32 ∨ (Rect.block (s := S16384x4096) S2048x1024.size (cc0_transform_3 i) (hinb0_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v11) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S4096x4096, .f32⟩
  | .hbm, ⟨15, _⟩ => ⟨S4096x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.TileValue.lean ====
/-
  The body's arithmetic on one output tile, read at one place of the tile, on the extended reals.

  The body keeps a 2048 × 1024 tile of the output in its staging buffer. At the first step of the contraction
  it stores zeros; at every step it adds to the tile the product of a 2048 × 1024 block of the activations with the
  transpose of a 1024 × 1024 block of the quantized weights (both operands are contracted along their second axis);
  at the last step it adds one row of 1024 biases to every row of the tile. Read at place (p, q):
    zeros                    ↦ 0
    tile + block product     ↦ tile[p, q] + Σ_k lhs[p, k] · rhs[q, k]
    tile + bias row          ↦ tile[p, q] + bias[0, q].
-/
import proofs.«106869_j84619445666060_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

/-- The zero tile holds the extended real `0` everywhere. -/
theorem zeros_apply (y : S2048x1024.Idx) : k0_pay1 (F := Ideal) y = 0 :=
  Ideal.ofBits_zero_f32

/-- The contraction's left operand index at output place (p, q) and contraction coordinate k is (p, k). -/
theorem lhs_at (p : Fin 2048) (q k : Fin 1024) :
    dot_S2048x1024_S1024x1024_S2048x1024_1_1_0_0_n_n.lhsIdx (ix2 p q)
        ((contrEquiv1 dot_S2048x1024_S1024x1024_S2048x1024_1_1_0_0_n_n 1024 rfl rfl).symm k) = ix2 p k := by
  have hk := contrEquiv1_symm_val dot_S2048x1024_S1024x1024_S2048x1024_1_1_0_0_n_n 1024 rfl rfl k
  funext a
  apply Fin.ext
  match a with
  | ⟨0, _⟩ =>
    show (dot_S2048x1024_S1024x1024_S2048x1024_1_1_0_0_n_n.lhsIdx (ix2 p q) _ 0).val = p.val
    unfold DotDims.lhsIdx
    rw [dif_neg (show ¬(0 : Fin S2048x1024.rank) ∈ dot_S2048x1024_S1024x1024_S2048x1024_1_1_0_0_n_n.lhsBatch by decide),
      dif_pos (show (0 : Fin S2048x1024.rank) ∈ dot_S2048x1024_S1024x1024_S2048x1024_1_1_0_0_n_n.lhsNonContracting by decide)]
    rfl
  | ⟨1, _⟩ =>
    exact (dot_S2048x1024_S1024x1024_S2048x1024_1_1_0_0_n_n.lhsIdx_val_of_single rfl (ix2 p q) _).trans hk

/-- The right operand index there is (q, k): the weights block is contracted along its second axis too. -/
theorem rhs_at (p : Fin 2048) (q k : Fin 1024) :
    dot_S2048x1024_S1024x1024_S2048x1024_1_1_0_0_n_n.rhsIdx (ix2 p q)
        ((contrEquiv1 dot_S2048x1024_S1024x1024_S2048x1024_1_1_0_0_n_n 1024 rfl rfl).symm k) = ix2 q k := by
  have hk := contrEquiv1_symm_val dot_S2048x1024_S1024x1024_S2048x1024_1_1_0_0_n_n 1024 rfl rfl k
  funext a
  apply Fin.ext
  match a with
  | ⟨0, _⟩ =>
    show (dot_S2048x1024_S1024x1024_S2048x1024_1_1_0_0_n_n.rhsIdx (ix2 p q) _ 0).val = q.val
    unfold DotDims.rhsIdx
    rw [dif_neg (show ¬(0 : Fin S1024x1024.rank) ∈ dot_S2048x1024_S1024x1024_S2048x1024_1_1_0_0_n_n.rhsBatch by decide),
      dif_pos (show (0 : Fin S1024x1024.rank) ∈ dot_S2048x1024_S1024x1024_S2048x1024_1_1_0_0_n_n.rhsNonContracting by decide)]
    rfl
  | ⟨1, _⟩ =>
    exact (dot_S2048x1024_S1024x1024_S2048x1024_1_1_0_0_n_n.rhsIdx_val_of_single rfl (ix2 p q) _).trans hk

/-- One accumulation step at place (p, q): the tile there plus the row-by-row product of the two blocks. -/
theorem step_apply (acc : Vec Ideal S2048x1024 .f32) (x : Vec Ideal S2048x1024 .bf16) (w : Vec Ideal S1024x1024 .bf16)
    (p : Fin 2048) (q : Fin 1024) :
    k0_pay2 acc x w (ix2 p q) = acc (ix2 p q) + ∑ k : Fin 1024, x (ix2 p k) * w (ix2 q k) := by
  unfold k0_pay2
  simp only [shapeCast_self]
  rw [addf_apply]
  simp only [matmul]
  rw [Ideal.matmul_constant_zero_apply,
    ← Equiv.sum_comp (contrEquiv1 dot_S2048x1024_S1024x1024_S2048x1024_1_1_0_0_n_n 1024 rfl rfl).symm]
  refine congrArg (acc (ix2 p q) + ·) (Finset.sum_congr rfl fun k _ => ?_)
  rw [lhs_at, rhs_at]

/-- The bias step at place (p, q): the tile there plus the bias of column q. -/
theorem bias_apply (o : Vec Ideal S2048x1024 .f32) (b : Vec Ideal S1x1024 .f32) (p : Fin 2048) (q : Fin 1024) :
    k0_pay3 o b (ix2 p q) = o (ix2 p q) + b (ix2 (0 : Fin 1) q) := by
  unfold k0_pay3
  simp only [shapeCast_self]
  rw [addf_apply]
  refine congrArg (o (ix2 p q) + ·) ?_
  exact broadcastTo_apply b broadcasts_S1x1024_S2048x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

end Cert.KernelIdeal.TileValue

end
-- ==== Proof.BlockSum.lean ====
/-
  A sum over a contraction axis of 4096 places, taken as four consecutive blocks of 1024 places and added
  block after block starting from zero — the order in which an output tile accumulates the partial products of
  a contraction axis tiled in four. Only the commutativity and associativity of addition enter, so the law holds
  in every commutative additive monoid; the extended reals are one, their infinities included, and no
  finiteness of the summands is needed.
-/
import Mathlib.Algebra.BigOperators.Fin
import Mathlib.Logic.Equiv.Fin.Basic

namespace Cert.BlockSum

/-- Place `a` of block `j` on the whole axis: coordinate `1024·j + a`. -/
abbrev kAt (j : Fin 4) (a : Fin 1024) : Fin 4096 := ⟨j.val * 1024 + a.val, by omega⟩

/-- The whole sum is the four block sums added in order onto zero. -/
theorem sum_blocks {β : Type*} [AddCommMonoid β] (f : Fin 4096 → β) :
    ∑ k : Fin 4096, f k
      = (((0 + ∑ a : Fin 1024, f (kAt 0 a)) + ∑ a : Fin 1024, f (kAt 1 a)) + ∑ a : Fin 1024, f (kAt 2 a))
          + ∑ a : Fin 1024, f (kAt 3 a) := by
  have e : ∑ p : Fin 4 × Fin 1024, f (kAt p.1 p.2) = ∑ k : Fin 4096, f k :=
    Fintype.sum_equiv (finProdFinEquiv (m := 4) (n := 1024)) (fun p => f (kAt p.1 p.2)) (fun k : Fin (4 * 1024) => f k)
      (fun p => congrArg f (Fin.ext (by
        show p.1.val * 1024 + p.2.val = p.2.val + 1024 * p.1.val
        omega)))
  rw [← e, Fintype.sum_prod_type, Fin.sum_univ_four, zero_add]

end Cert.BlockSum
-- ==== Proof.KernelValue.lean ====
/-
  What the kernel leaves in its output array, read at one index, on the extended reals.

  The grid has 8 × 4 × 4 points (row tile, column tile, contraction step), visited with the contraction step
  innermost: point t has row tile t / 16, column tile (t / 4) % 4 and contraction step t % 4. A run is the four
  consecutive points 4n … 4n + 3 of one output tile; the tile is written back after the last of them. At step j the
  body is given block (row tile, j) of the activations — rows 2048·(row tile) …, columns 1024·j … —, block
  (column tile, j) of the quantized weights, and block (0, column tile) of the bias row.

  So the array ends, at (r, o), holding
      0 + Σ_{a<1024} x[r, a]·w[o, a] + Σ_a x[r, 1024 + a]·w[o, 1024 + a] + Σ_a x[r, 2048 + a]·w[o, 2048 + a]
        + Σ_a x[r, 3072 + a]·w[o, 3072 + a] + b[0, o],
  the sums added in this order, where x, w and b are the arrays the region is launched on.
-/
import proofs.«106869_j84619445666060_2_alg».proof.Proof.Gen.KernelIdeal.Value
import proofs.«106869_j84619445666060_2_alg».proof.Proof.TileValue
import proofs.«106869_j84619445666060_2_alg».proof.Proof.BlockSum

noncomputable section

namespace Cert.KernelIdeal.ArrayValue

open Cert.KernelIdeal Cert.KernelIdeal.Gen Cert.KernelIdeal.Value Cert.KernelIdeal.TileValue
open Idealize.ShloMosaic Idealize.ShloMosaic.ValueIdx Idealize.ShloMosaic.TcCoe Idealize.SL.Sem
open Cert.BlockSum (kAt)

variable (m : (ℓ : Loc nD τ sig) → Buf (Elt Ideal) ℓ)

/-- The three input windows' block indices at every grid point, from the point's number. -/
theorem index_maps : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4 :=
  (by decide +kernel : ∀ t : Fin grid0.N, _)

/-! ## The arrays the region is launched on and the array it leaves, as plain functions of their indices -/

/-- The activations (the first window's array). -/
def acts (c : Dev nD) : S16384x4096.Idx → EReal := V m c main_v11
/-- The quantized weights (the second window's array). -/
def wts (c : Dev nD) : S4096x4096.Idx → EReal := V m c main_v10
/-- The bias row (the third window's array). -/
def biasRow (c : Dev nD) : S1x4096.Idx → EReal := V m c main_v12
/-- The output array after the run. -/
def outArr (c : Dev nD) : S16384x4096.Idx → EReal := G3 m c

/-! ## A block read at a place is the array read at the block's offset plus the place -/

/-- The activations' block at point `t`, at place (p, k). -/
theorem lhs_block (c : Dev nD) (t : Fin cfg0.N) (p : Fin 2048) (k : Fin 1024) (I : S16384x4096.Idx)
    (h0 : (I 0).val = win0_0.index t (0 : Fin 2) * 2048 + p.val)
    (h1 : (I 1).val = win0_0.index t (1 : Fin 2) * 1024 + k.val) :
    (iblk m c 0 t : Vec Ideal S2048x1024 .bf16) (ix2 p k) = acts m c I := by
  show acts m c (((cfg0.win 0).blk t).view.emb (ix2 p k)) = _
  refine congrArg (acts m c) (funext fun a => Fin.ext ?_)
  match a with
  | ⟨0, _⟩ =>
    show win0_0.index t (0 : Fin 2) * 2048 + 1 * p.val = (I 0).val
    omega
  | ⟨1, _⟩ =>
    show win0_0.index t (1 : Fin 2) * 1024 + 1 * k.val = (I 1).val
    omega

/-- The quantized weights' block at point `t`, at place (q, k). -/
theorem rhs_block (c : Dev nD) (t : Fin cfg0.N) (q k : Fin 1024) (I : S4096x4096.Idx)
    (h0 : (I 0).val = win0_1.index t (0 : Fin 2) * 1024 + q.val)
    (h1 : (I 1).val = win0_1.index t (1 : Fin 2) * 1024 + k.val) :
    (iblk m c 1 t : Vec Ideal S1024x1024 .bf16) (ix2 q k) = wts m c I := by
  show wts m c (((cfg0.win 1).blk t).view.emb (ix2 q k)) = _
  refine congrArg (wts m c) (funext fun a => Fin.ext ?_)
  match a with
  | ⟨0, _⟩ =>
    show win0_1.index t (0 : Fin 2) * 1024 + 1 * q.val = (I 0).val
    omega
  | ⟨1, _⟩ =>
    show win0_1.index t (1 : Fin 2) * 1024 + 1 * k.val = (I 1).val
    omega

/-- The bias row's block at point `t`, at place (0, q). -/
theorem bias_block (c : Dev nD) (t : Fin cfg0.N) (q : Fin 1024) (I : S1x4096.Idx)
    (h0 : (I 0).val = win0_2.index t (0 : Fin 2) * 1 + 0)
    (h1 : (I 1).val = win0_2.index t (1 : Fin 2) * 1024 + q.val) :
    (iblk m c 2 t : Vec Ideal S1x1024 .f32) (ix2 (0 : Fin 1) q) = biasRow m c I := by
  show biasRow m c (((cfg0.win 2).blk t).view.emb (ix2 (0 : Fin 1) q)) = _
  refine congrArg (biasRow m c) (funext fun a => Fin.ext ?_)
  match a with
  | ⟨0, _⟩ =>
    show win0_2.index t (0 : Fin 2) * 1 + 1 * 0 = (I 0).val
    omega
  | ⟨1, _⟩ =>
    show win0_2.index t (1 : Fin 2) * 1024 + 1 * q.val = (I 1).val
    omega

/-! ## The fold of one run of four points -/

/-- A middle step of a run adds the block product of its point. -/
theorem step_mid (c : Dev nD) (n : ℕ) (h : n < cfg0.N) (h0 : ¬n % 4 = 0) (h3 : ¬n % 4 = 3)
    (acc : Vec Ideal S2048x1024 .f32) :
    step3 m c n h acc = k0_pay2 acc (iblk m c 0 ⟨n, h⟩) (iblk m c 1 ⟨n, h⟩) := by
  unfold step3
  rw [if_pos ⟨h0, h3⟩]

/-- The last step of a run adds the block product of its point and then the bias row. -/
theorem step_last (c : Dev nD) (n : ℕ) (h : n < cfg0.N) (h0 : ¬n % 4 = 0) (h3 : n % 4 = 3)
    (acc : Vec Ideal S2048x1024 .f32) :
    step3 m c n h acc = k0_pay3 (k0_pay2 acc (iblk m c 0 ⟨n, h⟩) (iblk m c 1 ⟨n, h⟩)) (iblk m c 2 ⟨n, h⟩) := by
  unfold step3
  rw [if_neg (fun hh => hh.2 h3), if_pos ⟨h0, h3⟩]

/-- What the staging buffer holds after the run 4n … 4n + 3: zeros, four block products added in turn, the bias row. -/
theorem run_fold (c : Dev nD) (n : ℕ) (h : 4 * n + 3 < cfg0.N) :
    Pipeline.accAt (reset3 m c) (step3 m c) (4 * n) 3 h
      = k0_pay3 (k0_pay2 (k0_pay2 (k0_pay2 (k0_pay2 (k0_pay1 (F := Ideal))
            (iblk m c 0 ⟨4 * n, by omega⟩) (iblk m c 1 ⟨4 * n, by omega⟩))
            (iblk m c 0 ⟨4 * n + 1, by omega⟩) (iblk m c 1 ⟨4 * n + 1, by omega⟩))
            (iblk m c 0 ⟨4 * n + 2, by omega⟩) (iblk m c 1 ⟨4 * n + 2, by omega⟩))
            (iblk m c 0 ⟨4 * n + 3, h⟩) (iblk m c 1 ⟨4 * n + 3, h⟩))
          (iblk m c 2 ⟨4 * n + 3, h⟩) := by
  show step3 m c (4 * n + 3) h (step3 m c (4 * n + 2) (by omega) (step3 m c (4 * n + 1) (by omega)
    (reset3 m c (4 * n) (by omega)))) = _
  rw [step_last m c (4 * n + 3) h (by omega) (by omega), step_mid m c (4 * n + 2) (by omega) (by omega) (by omega),
    step_mid m c (4 * n + 1) (by omega) (by omega) (by omega)]
  rfl

/-! ## The array at an index -/

/-- One product of the fold. In the run of the tile that holds (r, o), at contraction step `j`, place `k` of the
    activations' block on the row of `r` is x[r, 1024·j + k], and place `k` of the weights' block on the row of `o` is
    w[o, 1024·j + k]. -/
theorem summand (c : Dev nD) (r : Fin 16384) (o : Fin 4096) (n : ℕ) (hn : n = 4 * (r.val / 2048) + o.val / 1024)
    (j : Fin 4) (h : 4 * n + j.val < cfg0.N) (p : Fin 2048) (hp : p.val = r.val % 2048)
    (q : Fin 1024) (hq : q.val = o.val % 1024) (k : Fin 1024)
    (x : Vec Ideal S2048x1024 .bf16) (w : Vec Ideal S1024x1024 .bf16)
    (hx : x = iblk m c 0 ⟨4 * n + j.val, h⟩) (hw : w = iblk m c 1 ⟨4 * n + j.val, h⟩) :
    x (ix2 p k) * w (ix2 q k) = acts m c (ix2 r (kAt j k)) * wts m c (ix2 o (kAt j k)) := by
  subst hx hw
  obtain ⟨e00, e01, e10, e11, -, -⟩ := index_maps ⟨4 * n + j.val, h⟩
  have e00' : win0_0.index ⟨4 * n + j.val, h⟩ (0 : Fin 2) = (4 * n + j.val) / 16 := e00
  have e01' : win0_0.index ⟨4 * n + j.val, h⟩ (1 : Fin 2) = (4 * n + j.val) % 4 := e01
  have e10' : win0_1.index ⟨4 * n + j.val, h⟩ (0 : Fin 2) = (4 * n + j.val) / 4 % 4 := e10
  have e11' : win0_1.index ⟨4 * n + j.val, h⟩ (1 : Fin 2) = (4 * n + j.val) % 4 := e11
  have hr := r.isLt
  have ho := o.isLt
  have hj := j.isLt
  refine congrArg₂ (· * ·) (lhs_block m c _ p k _ ?_ ?_) (rhs_block m c _ q k _ ?_ ?_)
  · show r.val = _
    rw [e00']
    omega
  · show j.val * 1024 + k.val = _
    rw [e01']
    omega
  · show o.val = _
    rw [e10']
    omega
  · show j.val * 1024 + k.val = _
    rw [e11']
    omega

/-- The bias the last step adds at column place `q` of the tile that holds (r, o) is b[0, o]. -/
theorem bias_term (c : Dev nD) (r : Fin 16384) (o : Fin 4096) (n : ℕ) (hn : n = 4 * (r.val / 2048) + o.val / 1024)
    (h : 4 * n + 3 < cfg0.N) (q : Fin 1024) (hq : q.val = o.val % 1024) :
    (iblk m c 2 ⟨4 * n + 3, h⟩ : Vec Ideal S1x1024 .f32) (ix2 (0 : Fin 1) q) = biasRow m c (ix2 (0 : Fin 1) o) := by
  obtain ⟨-, -, -, -, e20, e21⟩ := index_maps ⟨4 * n + 3, h⟩
  have e20' : win0_2.index ⟨4 * n + 3, h⟩ (0 : Fin 2) = 0 := e20
  have e21' : win0_2.index ⟨4 * n + 3, h⟩ (1 : Fin 2) = (4 * n + 3) / 4 % 4 := e21
  have hr := r.isLt
  have ho := o.isLt
  refine bias_block m c _ q _ ?_ ?_
  · show (0 : ℕ) = _
    rw [e20']
  · show o.val = _
    rw [e21']
    omega

/-- THE ARRAY AT (r, o): zero, the four block sums of x[r, ·]·w[o, ·] in order, then b[0, o]. -/
theorem array_apply (c : Dev nD) (r : Fin 16384) (o : Fin 4096) :
    outArr m c (ix2 r o)
      = ((((0
          + ∑ a : Fin 1024, acts m c (ix2 r (kAt 0 a)) * wts m c (ix2 o (kAt 0 a)))
          + ∑ a : Fin 1024, acts m c (ix2 r (kAt 1 a)) * wts m c (ix2 o (kAt 1 a)))
          + ∑ a : Fin 1024, acts m c (ix2 r (kAt 2 a)) * wts m c (ix2 o (kAt 2 a)))
          + ∑ a : Fin 1024, acts m c (ix2 r (kAt 3 a)) * wts m c (ix2 o (kAt 3 a)))
        + biasRow m c (ix2 (0 : Fin 1) o) := by
  have hN : cfg0.N = 128 := N_0
  have hr := r.isLt
  have ho := o.isLt
  have hrun : run3Of (ix2 r o) = 4 * (r.val / 2048) + o.val / 1024 := by
    show 4 * (r.val / 2048 - 0) + 1 * (o.val / 1024 - 0) = _
    omega
  have hlt : 4 * run3Of (ix2 r o) + 3 < cfg0.N := by
    rw [hrun, hN]
    omega
  have hloc : loc3Of (ix2 r o)
      = ix2 (⟨r.val % 2048, Nat.mod_lt _ (by decide)⟩ : Fin 2048) (⟨o.val % 1024, Nat.mod_lt _ (by decide)⟩ : Fin 1024) := by
    funext a
    match a with
    | ⟨0, _⟩ => rfl
    | ⟨1, _⟩ => rfl
  show (if h : 4 * run3Of (ix2 r o) + 3 < cfg0.N then
      (Pipeline.accAt (reset3 m c) (step3 m c) (4 * run3Of (ix2 r o)) 3 h) (loc3Of (ix2 r o))
    else V m c (Pipeline.arrRef spec0 3) (ix2 r o)) = _
  rw [dif_pos hlt, run_fold m c _ hlt, hloc, bias_apply, step_apply, step_apply, step_apply, step_apply, zeros_apply]
  refine congrArg₂ (· + ·) (congrArg₂ (· + ·) (congrArg₂ (· + ·) (congrArg₂ (· + ·) (congrArg₂ (· + ·) rfl ?_) ?_) ?_) ?_) ?_
  · exact Finset.sum_congr rfl fun k _ => summand m c r o _ hrun 0 (by omega) _ rfl _ rfl k _ _ rfl rfl
  · exact Finset.sum_congr rfl fun k _ => summand m c r o _ hrun 1 (by omega) _ rfl _ rfl k _ _ rfl rfl
  · exact Finset.sum_congr rfl fun k _ => summand m c r o _ hrun 2 (by omega) _ rfl _ rfl k _ _ rfl rfl
  · exact Finset.sum_congr rfl fun k _ => summand m c r o _ hrun 3 (by omega) _ rfl _ rfl k _ _ rfl rfl
  · exact bias_term m c r o _ hrun hlt _ rfl

end Cert.KernelIdeal.ArrayValue

end
-- ==== Proof.RefValue.lean ====
/-
  What the reference computes, read at one index, on the extended reals:
      out[r, o] = Σ_{k<4096} x[r, k] · q[o, k] + b[o],
  where q is the quantized weight matrix — sign(W)·[|W| > mean|W| · ½], whatever it is: it is the same term of W on
  the kernel's side, so it is never opened here — and the bias is broadcast along the rows.
-/
import proofs.«106869_j84619445666060_2_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The reference's result at (r, o): the contraction over the whole axis of row r of the activations with row o of
    the quantized weights, plus the bias of column o. -/
theorem result_apply (x0 : (⟨S16384x4096, .f32⟩ : BufTy).Contents (Elt Ideal))
    (x1 : (⟨S4096x4096, .f32⟩ : BufTy).Contents (Elt Ideal)) (x2 : (⟨S4096, .f32⟩ : BufTy).Contents (Elt Ideal))
    (r : Fin 16384) (o : Fin 4096) :
    val_main_v13 (F := Ideal) x0 x1 x2 (ix2 r o)
      = (∑ k : Fin 4096, x0 (ix2 r k) * val_main_v9 (F := Ideal) x1 (ix2 o k)) + x2 (ix1 o) := by
  have el : ∀ k : Fin 4096, lidx_main_v10 (ix2 r o) k = ix2 r k := fun k => funext fun a => Fin.ext (by
    match a with
    | ⟨0, _⟩ => rfl
    | ⟨1, _⟩ => rfl)
  have er : ∀ k : Fin 4096, ridx_main_v10 (ix2 r o) k = ix2 o k := fun k => funext fun a => Fin.ext (by
    match a with
    | ⟨0, _⟩ => rfl
    | ⟨1, _⟩ => rfl)
  have eb : idx_main_v11 (idx_main_v12 (ix2 r o)) = ix1 o := funext fun a => Fin.ext (by
    match a with
    | ⟨0, _⟩ => rfl)
  rw [val_main_v13_apply, val_main_v10_apply, val_main_v12_apply, val_main_v11_apply, eb]
  simp only [el, er]
  rfl

end Cert.ReferenceIdeal.RefValue

end
-- ==== Proof.Bridge.lean ====
/-
  The kernel's output array and the reference's result are one function of the three arguments.

  Before the region the kernel's host code quantizes the weights with the very operations the reference uses
  (sign(W)·[|W| > mean|W| · ½]), changes the float format of the activations and of the quantized weights — the identity on
  the extended reals — and lays the bias out as one row of 4096. So the region is launched on x, q = quantize(W) and b,
  and at (r, o) the array ends holding  0 + Σ₀ + Σ₁ + Σ₂ + Σ₃ + b[o],  Σ_j the products x[r, k]·q[o, k] over the
  j-th quarter of the contraction axis, while the reference holds  Σ_{k<4096} x[r, k]·q[o, k] + b[o].  The two agree
  because a sum over the whole axis is the sum of its four quarters added in order onto zero — a law of every
  commutative additive monoid, so that no finiteness of the entries is used.
-/
import proofs.«106869_j84619445666060_2_alg».proof.Proof.KernelValue
import proofs.«106869_j84619445666060_2_alg».proof.Proof.RefValue
import Idealize.ShloMosaic.Lib.StableHlo.Run

noncomputable section

namespace Cert.Bridge

open Cert.KernelIdeal Cert.KernelIdeal.Gen Cert.KernelIdeal.Value Cert.KernelIdeal.ArrayValue
open Idealize.ShloMosaic Idealize.ShloMosaic.ValueIdx Idealize.ShloMosaic.TcCoe Idealize.SL.Sem
open Idealize.ShloMosaic.StableHlo
open Cert.BlockSum (kAt)

variable (m : (ℓ : Loc nD τ sig) → Buf (Elt Ideal) ℓ)

/-! ## What the region is launched on -/

/-- The activations as the region finds them are the first argument: the format change is the identity. -/
theorem acts_apply (c : Dev nD) (i : S16384x4096.Idx) :
    acts m c i = m ((c : Thread nD τ).loc main_arg0) i := by
  show (V m c main_v11 : S16384x4096.Idx → EReal) i = _
  dsimp only [V, hostOps0]
  after_results
  rfl

/-- The weights as the region finds them are the reference's quantized weights of the second argument. -/
theorem wts_apply (c : Dev nD) (i : S4096x4096.Idx) :
    wts m c i = Cert.ReferenceIdeal.Read.val_main_v9 (F := Ideal) (m ((c : Thread nD τ).loc main_arg1)) i := by
  show (V m c main_v10 : S4096x4096.Idx → EReal) i = _
  dsimp only [V, hostOps0]
  after_results
  rfl

/-- The bias row as the region finds it, at column o, is the third argument at o. -/
theorem biasRow_apply (c : Dev nD) (o : Fin 4096) :
    biasRow m c (ix2 (0 : Fin 1) o) = m ((c : Thread nD τ).loc main_arg2) (ix1 o) := by
  have e : biasRow m c = shapeCast S1x4096 (m ((c : Thread nD τ).loc main_arg2)) shapeCasts_S4096_S1x4096 := by
    show (V m c main_v12 : S1x4096.Idx → EReal) = _
    dsimp only [V, hostOps0]
    after_results
    rfl
  rw [e]
  refine (shapeCast_addUnit_apply ![4096] _ _ (ix2 (0 : Fin 1) o)).trans ?_
  refine congrArg (m ((c : Thread nD τ).loc main_arg2)) (funext fun a => ?_)
  match a with
  | ⟨0, _⟩ => rfl

/-! ## The two results -/

/-- The reference's result of the kernel's arguments is the array the kernel leaves. -/
theorem result_eq (c : Dev nD) :
    Cert.ReferenceIdeal.Read.val_main_v13 (F := Ideal) (m ((c : Thread nD τ).loc main_arg0))
        (m ((c : Thread nD τ).loc main_arg1)) (m ((c : Thread nD τ).loc main_arg2))
      = G3 m c := by
  funext i
  obtain ⟨r, o, rfl⟩ : ∃ (r : Fin 16384) (o : Fin 4096), i = ix2 r o := ⟨i 0, i 1, eq_ix2 i⟩
  refine Eq.trans ?_ (array_apply m c r o).symm
  rw [Cert.ReferenceIdeal.RefValue.result_apply, Cert.BlockSum.sum_blocks]
  simp only [acts_apply m c, wts_apply m c, biasRow_apply m c]

end Cert.Bridge

end
-- ==== Proof.lean ====
/-
  A linear layer with ternary weights: out = x · qᵀ + b, where x is 16384 × 4096, the weight matrix W is 4096 × 4096,
  q = sign(W)·[|W| > mean|W| · ½] is W quantized to {-1, 0, 1}, and b is a bias of 4096 entries.

  The kernel quantizes W on the host exactly as the reference does, then computes the product tile by tile: the
  output is cut into 2048 × 1024 tiles and the contraction axis into four quarters of 1024; a tile starts at zero,
  receives the partial product of each quarter in turn, and the bias after the last. The reference contracts the whole
  axis at once and adds the bias. On the extended reals both are Σ_k x[r, k]·q[o, k] + b[o] at every (r, o): the whole
  sum is the sum of its quarters added in order onto zero, by the commutativity and associativity of addition alone, so
  the precondition (finite inputs) is not used. The changes of float format on the kernel's side are the identity
  there. The idealized kernel is the kernel's own text, so there is nothing to preserve.

  The three frames are the generated runs; the equality of the two results is Proof/Bridge.lean, over the kernel's
  array read at an index (Proof/KernelValue.lean, Proof/TileValue.lean), the reference read at an index
  (Proof/RefValue.lean) and the law of the four quarters (Proof/BlockSum.lean).
-/
import proofs.«106869_j84619445666060_2_alg».proof.Defs
import proofs.«106869_j84619445666060_2_alg».proof.Proof.Gen.Kernel.Frame
import proofs.«106869_j84619445666060_2_alg».proof.Proof.Gen.KernelIdeal.Value
import proofs.«106869_j84619445666060_2_alg».proof.Proof.Gen.Pre_finite_inputs
import proofs.«106869_j84619445666060_2_alg».proof.Proof.Gen.ReferenceIdeal.Run
import proofs.«106869_j84619445666060_2_alg».proof.Proof.Gen.ReferenceIdeal.Read
import proofs.«106869_j84619445666060_2_alg».proof.Proof.Bridge
import Idealize.ShloMosaic.Adequacy
import Idealize.ShloMosaic.Init

noncomputable section

namespace Cert.Proof

open Idealize.ShloMosaic Idealize.SL.Sem

/-- The idealized kernel runs and leaves its arguments as they were: its value run, the result dropped. -/
theorem frame_KernelIdeal : frame_KernelIdeal := fun m ρ _ =>
  (θ_run Cert.KernelIdeal.defs _ _).mono (fun _ h c => (h c).2) (Cert.KernelIdeal.Value.run (F := Ideal) m ρ)

/-- The reference runs and leaves its arguments as they were: its run, the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x, W and b the two programs end with the same array: the kernel's tiled fold and
    the reference's whole contraction are one function of the arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v13_eq _ _ _).trans (Cert.Bridge.result_eq m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
